-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S2000x128 : Shape := ⟨2, ![2000, 128]⟩
abbrev S650000x128 : Shape := ⟨2, ![650000, 128]⟩
abbrev S1x128 : Shape := ⟨2, ![1, 128]⟩

abbrev nBuf : Space → Nat
  | .hbm => 128
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S50000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000, .i32⟩
  | .hbm, ⟨72, _⟩ => ⟨S650000, .i32⟩
  | .hbm, ⟨73, _⟩ => ⟨S650000, .i32⟩
  | .hbm, ⟨74, _⟩ => ⟨S_, .f32⟩
  | .hbm, ⟨75, _⟩ => ⟨S650000, .f32⟩
  | .hbm, ⟨76, _⟩ => ⟨S_, .f32⟩
  | .hbm, ⟨77, _⟩ => ⟨S50000, .f32⟩
  | .hbm, ⟨78, _⟩ => ⟨S650000x1, .i32⟩
  | .hbm, ⟨79, _⟩ => ⟨S50000, .f32⟩
  | .hbm, ⟨80, _⟩ => ⟨S_, .f32⟩
  | .hbm, ⟨81, _⟩ => ⟨S50000, .f32⟩
  | .hbm, ⟨82, _⟩ => ⟨S50000, .i1⟩
  | .hbm, ⟨83, _⟩ => ⟨S50000, .f32⟩
  | .hbm, ⟨84, _⟩ => ⟨S_, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S_, .i32⟩
  | .hbm, ⟨89, _⟩ => ⟨S650000, .i32⟩
  | .hbm, ⟨90, _⟩ => ⟨S650000, .i1⟩
  | .hbm, ⟨91, _⟩ => ⟨S_, .i32⟩
  | .hbm, ⟨92, _⟩ => ⟨S650000, .i32⟩
  | .hbm, ⟨93, _⟩ => ⟨S650000, .i32⟩
  | .hbm, ⟨94, _⟩ => ⟨S650000, .i32⟩
  | .hbm, ⟨95, _⟩ => ⟨S650000x1, .i32⟩
  | .hbm, ⟨96, _⟩ => ⟨S650000, .f32⟩
  | .hbm, ⟨97, _⟩ => ⟨S_, .i32⟩
  | .hbm, ⟨98, _⟩ => ⟨S650000, .i32⟩
  | .hbm, ⟨99, _⟩ => ⟨S650000, .i1⟩
  | .hbm, ⟨100, _⟩ => ⟨S_, .i32⟩
  | .hbm, ⟨101, _⟩ => ⟨S650000, .i32⟩
  | .hbm, ⟨102, _⟩ => ⟨S650000, .i32⟩
  | .hbm, ⟨103, _⟩ => ⟨S650000, .i32⟩
  | .hbm, ⟨104, _⟩ => ⟨S650000x1, .i32⟩
  | .hbm, ⟨105, _⟩ => ⟨S650000, .f32⟩
  | .hbm, ⟨106, _⟩ => ⟨S650000, .f32⟩
  | .hbm, ⟨107, _⟩ => ⟨S50000x128, .f32⟩
  | .hbm, ⟨108, _⟩ => ⟨S_, .i32⟩
  | .hbm, ⟨109, _⟩ => ⟨S650000, .i32⟩
  | .hbm, ⟨110, _⟩ => ⟨S650000, .i1⟩
  | .hbm, ⟨111, _⟩ => ⟨S_, .i32⟩
  | .hbm, ⟨112, _⟩ => ⟨S650000, .i32⟩
  | .hbm, ⟨113, _⟩ => ⟨S650000, .i32⟩
  | .hbm, ⟨114, _⟩ => ⟨S650000, .i32⟩
  | .hbm, ⟨115, _⟩ => ⟨S650000x1, .i32⟩
  | .hbm, ⟨116, _⟩ => ⟨S650000x128, .f32⟩
  | .hbm, ⟨117, _⟩ => ⟨S650000x1, .f32⟩
  | .hbm, ⟨118, _⟩ => ⟨S650000x128, .f32⟩
  | .hbm, ⟨119, _⟩ => ⟨S650000x128, .f32⟩
  | .hbm, ⟨120, _⟩ => ⟨S_, .f32⟩
  | .hbm, ⟨121, _⟩ => ⟨S50000x128, .f32⟩
  | .hbm, ⟨122, _⟩ => ⟨S650000x1, .i32⟩
  | .hbm, ⟨123, _⟩ => ⟨S50000x128, .f32⟩
  | .hbm, ⟨124, _⟩ => ⟨S1x128, .f32⟩
  | .hbm, ⟨125, _⟩ => ⟨S50000x128, .f32⟩
  | .hbm, ⟨126, _⟩ => ⟨S50000x128, .f32⟩
  | .hbm, ⟨127, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v90) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v91) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S1x600000, .i32⟩
  | 9 => ⟨S600000, .i32⟩
  | 10 => ⟨S1x600000, .i32⟩
  | 11 => ⟨S600000, .i32⟩
  | 12 => ⟨S50000, .i32⟩
  | 13 => ⟨S650000, .i32⟩
  | 14 => ⟨S650000, .i32⟩
  | 15 => ⟨S_, .f32⟩
  | 16 => ⟨S650000, .f32⟩
  | 17 => ⟨S_, .f32⟩
  | 18 => ⟨S50000, .f32⟩
  | 19 => ⟨S650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S50000x128, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x1, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S650000, .i32⟩
  | 73 => ⟨S650000, .i32⟩
  | 74 => ⟨S_, .f32⟩
  | 75 => ⟨S650000, .f32⟩
  | 76 => ⟨S_, .f32⟩
  | 77 => ⟨S50000, .f32⟩
  | 78 => ⟨S650000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S650000, .i32⟩
  | 90 => ⟨S650000, .i1⟩
  | 91 => ⟨S_, .i32⟩
  | 92 => ⟨S650000, .i32⟩
  | 93 => ⟨S650000, .i32⟩
  | 94 => ⟨S650000, .i32⟩
  | 95 => ⟨S650000x1, .i32⟩
  | 96 => ⟨S650000, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000, .f32⟩
  | 106 => ⟨S650000, .f32⟩
  | 107 => ⟨S50000x128, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000x128, .f32⟩
  | 117 => ⟨S650000x1, .f32⟩
  | 118 => ⟨S650000x128, .f32⟩
  | 119 => ⟨S650000x128, .f32⟩
  | 120 => ⟨S_, .f32⟩
  | 121 => ⟨S50000x128, .f32⟩
  | 122 => ⟨S650000x1, .i32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KRun.lean ====
/-
  The kernel program's run with its result named.

  The program is three matrix-product regions among stretches of host operations.  The contents of every buffer
  at each boundary between two segments are a fold from the launch memory; after the last region the fold is W12.
  Every weakly fair execution terminates without a fault, the result buffer ends at what W12 holds for it, and
  the eight argument buffers end as launched.
-/
import proofs.«173065_j62234076119723_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The segments' run, the last thread state read against the final state: the result buffer at the last boundary's
    contents, each argument walked back through the fold to the launch memory. -/
theorem run : θ_run defs (onTc (τ := τ) (main (F := F))) ⟨m, fun _ => 0, ρ⟩ (fun r => ∀ c : Dev nD,
      r.2.mem ((c.tc : Thread nD τ).loc main_v91) = W12 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v91 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.ValueRun

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.Blocks.lean ====
/-
  The three regions of the kernel program as whole-array functions.

  Each region works through the 50000 rows in 25 blocks of 2000: at grid point t it reads rows 2000 t … 2000 t + 1999
  of its left operand and the whole 128 × 128 right operand (the third region also the whole bias), and writes the
  same rows of its result.  An entry of a block's product depends on one row of the left operand only, so entry (r, q)
  of the result array is row r of the left operand times the right operand, at column q — for the third region plus
  the bias at q, then the maximum with zero.  The 25 blocks tile the result array, so after the region the array is
  that function of the operand arrays as the region found them.
-/
import proofs.«173065_j62234076119723_2_alg».proof.Proof.Gen.KernelIdeal.Frame
import proofs.«173065_j62234076119723_2_alg».proof.Proof.LibRowDot
import Idealize.ShloMosaic.Lib.Pipeline.Value
import Idealize.ShloMosaic.Lib.ValueIdx
import Idealize.ShloMosaic.Lib.ValueLayout

noncomputable section

open scoped BigOperators

namespace Cert.KernelIdeal.Blocks

open Cert.KernelIdeal Cert.KernelIdeal.Gen Cert.RowDot
open Idealize.ShloMosaic Idealize.ShloMosaic.TcCoe Idealize.ShloMosaic.ValueIdx Idealize.SL.Sem
open Idealize.ShloMosaic.Pipeline (Dat)

/-- The product of a 50000 × 128 array with a 128 × 128 matrix: entry j is row (j 0) of x times w, at column (j 1). -/
def matProd (x : S50000x128.Idx → EReal) (w : S128x128.Idx → EReal) : S50000x128.Idx → EReal :=
  fun j => rowDot (rowOf x (j 0)) w (j 1)

/-- The decoder layer on a whole array: the product plus the bias at the column, then the maximum with zero. -/
def denseRect (x : S50000x128.Idx → EReal) (w : S128x128.Idx → EReal) (b : S128.Idx → EReal) : S50000x128.Idx → EReal :=
  fun j => max (rowDot (rowOf x (j 0)) w (j 1) + b (ix1 (j 1))) (Ideal.ofBits .f32 0x00000000#32)

theorem hz2 : (![0, 0] : Fin 2 → Nat) = fun _ => 0 := funext fun a => by fin_cases a <;> rfl
theorem hz1 : (![0] : Fin 1 → Nat) = fun _ => 0 := funext fun a => by fin_cases a <;> rfl

/-! ## The bodies' stored values at an entry of the block -/

/-- The first region's stored block at (p, q): row p of the loaded block times the loaded matrix (the change of float
    format before the product keeps every value). -/
theorem pay0_apply (x0 : Vec Ideal S2000x128 .f32) (x1 : Vec Ideal S128x128 .f32) (p : Fin 2000) (q : Fin 128) :
    k0_pay1 (F := Ideal) x0 x1 (ix2 p q) = rowDot (rowOf x0 p) x1 q := by
  unfold k0_pay1
  exact matmul_plain_zero_apply none (truncf .bf16 x0 bitsLt_bf16_f32) (truncf .bf16 x1 bitsLt_bf16_f32) (ix2 p q)

/-- The second region's stored block at (p, q): the same product. -/
theorem pay1_apply (x0 : Vec Ideal S2000x128 .f32) (x1 : Vec Ideal S128x128 .f32) (p : Fin 2000) (q : Fin 128) :
    k1_pay1 (F := Ideal) x0 x1 (ix2 p q) = rowDot (rowOf x0 p) x1 q := by
  unfold k1_pay1
  rw [shapeCast_self x0 shapeCasts_S2000x128_S2000x128]
  exact matmul_plain_zero_apply none (truncf .bf16 x0 bitsLt_bf16_f32) (truncf .bf16 x1 bitsLt_bf16_f32) (ix2 p q)

/-- The third region's stored block at (p, q): the product plus the bias at q, then the maximum with zero. -/
theorem pay2_apply (x0 : Vec Ideal S2000x128 .f32) (x1 : Vec Ideal S128x128 .f32) (x2 : Vec Ideal S128 .f32) (p : Fin 2000) (q : Fin 128) :
    k2_pay1 (F := Ideal) x0 x1 x2 (ix2 p q)
      = max (rowDot (rowOf x0 p) x1 q + x2 (ix1 q)) (Ideal.ofBits .f32 0x00000000#32) := by
  unfold k2_pay1
  rw [shapeCast_self x0 shapeCasts_S2000x128_S2000x128]
  refine (maximumf_apply _ _ (ix2 p q)).trans ?_
  refine congrArg₂ max ((addf_apply _ _ (ix2 p q)).trans ?_) rfl
  exact congrArg₂ (fun a b : EReal => a + b)
    (matmul_plain_zero_apply none (truncf .bf16 x0 bitsLt_bf16_f32) (truncf .bf16 x1 bitsLt_bf16_f32) (ix2 p q))
    ((broadcastTo_1b_ab_apply _ broadcasts_S1x128_S2000x128 p q).trans (shapeCast_a_1a_apply x2 shapeCasts_S128_S1x128 0 q))

/-- A block's product at an index of the block is the whole product at the index of the array, once the block's rows
    are the array's rows there and the matrices agree. -/
theorem rowDot_congr (x0 : S2000x128.Idx → EReal) (x1 : S128x128.Idx → EReal) (X : S50000x128.Idx → EReal) (Wm : S128x128.Idx → EReal)
    (p : Fin 2000) (q : Fin 128) (i : S50000x128.Idx)
    (hrow : ∀ k : Fin 128, x0 (ix2 p k) = X (ix2 (i 0) k)) (hw : ∀ k : Fin 128, x1 (ix2 k q) = Wm (ix2 k (i 1))) :
    rowDot (rowOf x0 p) x1 q = rowDot (rowOf X (i 0)) Wm (i 1) := by
  unfold rowDot rowOf
  exact Finset.sum_congr rfl fun k _ => congrArg₂ (fun a b : EReal => a * b) (hrow k) (hw k)

/-! ## The first region -/

variable (V : (c : Dev nD) → (b : Ref sig .tc) → Buf (Elt Ideal) ((c : Thread nD τ).loc b))

/-- The printed index maps over the grid: the row blocks of the left operand and of the result move with the point,
    the right operand is read whole at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the operand arrays as the region finds them. -/
theorem flushed0 (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz2]
  simp only [View.ld_unit_zero (S := S2000x128) hz2, View.ld_unit_zero (S := S128x128) hz2]
  obtain ⟨e00, e01, e10, e11, e20, e21⟩ := idx0 t
  funext y
  show k0_pay1 (F := Ideal) (iblk0 V c 0 t) (iblk0 V c 1 t) y = matProd (V c main_arg0) (V c main_arg2) (((cfg0.win 2).blk t).view.emb y)
  obtain ⟨p, q, rfl⟩ : ∃ (p : Fin 2000) (q : Fin 128), y = ix2 p q := ⟨y 0, y 1, eq_ix2 y⟩
  rw [pay0_apply]
  refine rowDot_congr _ _ _ _ p q _ (fun k => ?_) (fun k => ?_)
  · show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_arg2 (((cfg0.win 1).blk t).view.emb (ix2 k q)) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Row r of the result array is in the block of point r / 2000: the 25 blocks tile the array. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, e20, e21⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e21]; omega

/-- After the first region its result array is the whole product of its operand arrays as the region found them. -/
theorem final0 (c : Dev nD) : (dat0 V c).arrAt 2 cfg0.N = matProd (V c main_arg0) (V c main_arg2) :=
  (dat0 V c).arrAt_eq_of_cover 2 (matProd (V c main_arg0) (V c main_arg2)) (fun t _ => flushed0 V c t) cover0

/-! ## The second region -/

/-- The printed index maps over the grid: the row blocks of the left operand and of the result move with the point,
    the right operand is read whole at every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the operand arrays as the region finds them. -/
theorem flushed1 (c : Dev nD) (t : Fin cfg1.N) :
    (dat1 V c).flushed 2 t = ((cfg1.win 2).blk t).view.read (Elt Ideal) (matProd (V c main_v47) (V c main_arg4)) := by
  show (cfg1.win 2).cut (grid1.coords t) ((dat1 V c).after 2 t) = _
  rw [after1_2]
  unfold out1_2
  rw [View.canon_unit_zero hz2]
  simp only [View.ld_unit_zero (S := S2000x128) hz2, View.ld_unit_zero (S := S128x128) hz2]
  obtain ⟨e00, e01, e10, e11, e20, e21⟩ := idx1 t
  funext y
  show k1_pay1 (F := Ideal) (iblk1 V c 0 t) (iblk1 V c 1 t) y = matProd (V c main_v47) (V c main_arg4) (((cfg1.win 2).blk t).view.emb y)
  obtain ⟨p, q, rfl⟩ : ∃ (p : Fin 2000) (q : Fin 128), y = ix2 p q := ⟨y 0, y 1, eq_ix2 y⟩
  rw [pay1_apply]
  refine rowDot_congr _ _ _ _ p q _ (fun k => ?_) (fun k => ?_)
  · show V c main_v47 (((cfg1.win 0).blk t).view.emb (ix2 p k)) = V c main_v47 _
    refine congrArg (V c main_v47) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * k.val = k.val; omega
  · show V c main_arg4 (((cfg1.win 1).blk t).view.emb (ix2 k q)) = V c main_arg4 _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega

/-- An index of the result array is in point t's block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v74).slice (win1_2.rect t)).set ↔ _
  rw [View.set_slice_whole, Rect.mem_set_unit]
  exact Iff.rfl

/-- Row r of the result array is in the block of point r / 2000: the 25 blocks tile the array. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, e20, e21⟩ := idx1 ⟨(i 0).val / 2000, ht⟩
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    rw [e21]; omega

/-- After the second region its result array is the whole product of its operand arrays as the region found them. -/
theorem final1 (c : Dev nD) : (dat1 V c).arrAt 2 cfg1.N = matProd (V c main_v47) (V c main_arg4) :=
  (dat1 V c).arrAt_eq_of_cover 2 (matProd (V c main_v47) (V c main_arg4)) (fun t _ => flushed1 V c t) cover1

/-! ## The third region -/

/-- The printed index maps over the grid: the row blocks of the left operand and of the result move with the point,
    the right operand and the bias are read whole at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- What point t writes back is block t of the whole product of the operand arrays as the region finds them. -/
theorem flushed2 (c : Dev nD) (t : Fin cfg2.N) :
    (dat2 V c).flushed 3 t = ((cfg2.win 3).blk t).view.read (Elt Ideal) (denseRect (V c main_v90) (V c main_arg6) (V c main_arg7)) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S128x128) hz2, View.ld_unit_zero (S := S128) hz1]
  obtain ⟨e00, e01, e10, e11, eb, e20, e21⟩ := idx2 t
  funext y
  show k2_pay1 (F := Ideal) (iblk2 V c 0 t) (iblk2 V c 1 t) (iblk2 V c 2 t) y = denseRect (V c main_v90) (V c main_arg6) (V c main_arg7) (((cfg2.win 3).blk t).view.emb y)
  obtain ⟨p, q, rfl⟩ : ∃ (p : Fin 2000) (q : Fin 128), y = ix2 p q := ⟨y 0, y 1, eq_ix2 y⟩
  rw [pay2_apply]
  refine congrArg₂ max (congrArg₂ (fun a b : EReal => a + b) (rowDot_congr _ _ _ _ p q _ (fun k => ?_) (fun k => ?_)) ?_) rfl
  · show V c main_v90 (((cfg2.win 0).blk t).view.emb (ix2 p k)) = V c main_v90 _
    refine congrArg (V c main_v90) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * k.val = k.val; omega
  · show V c main_arg6 (((cfg2.win 1).blk t).view.emb (ix2 k q)) = V c main_arg6 _
    refine congrArg (V c main_arg6) (funext fun a => Fin.ext ?_)
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  · show V c main_arg7 (((cfg2.win 2).blk t).view.emb (ix1 q)) = V c main_arg7 _
    refine congrArg (V c main_arg7) (funext fun a => Fin.ext ?_)
    match a with
    | ⟨0, _⟩ => show win2_2.index t (0 : Fin 1) * 128 + 1 * q.val = win2_3.index t (1 : Fin 2) * 128 + 1 * q.val; omega

/-- An index of the result array is in point t's block iff each coordinate is in the block's range on its axis. -/
theorem mem_blk2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v91).slice (win2_3.rect t)).set ↔ _
  rw [View.set_slice_whole, Rect.mem_set_unit]
  exact Iff.rfl

/-- Row r of the result array is in the block of point r / 2000: the 25 blocks tile the array. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨-, -, -, -, -, e20, e21⟩ := idx2 ⟨(i 0).val / 2000, ht⟩
  refine ⟨⟨(i 0).val / 2000, ht⟩, flush2_3 _, ?_⟩
  rw [mem_blk2]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win2_3.index ⟨(i 0).val / 2000, ht⟩ (1 : Fin 2) * 128 ≤ (i 1).val ∧ (i 1).val < win2_3.index ⟨(i 0).val / 2000, ht⟩ (1 : Fin 2) * 128 + 128
    rw [e21]; omega

/-- After the third region its result array is the decoder layer of its operand arrays as the region found them. -/
theorem final2 (c : Dev nD) : (dat2 V c).arrAt 3 cfg2.N = denseRect (V c main_v90) (V c main_arg6) (V c main_arg7) :=
  (dat2 V c).arrAt_eq_of_cover 3 (denseRect (V c main_v90) (V c main_arg6) (V c main_arg7)) (fun t _ => flushed2 V c t) cover2

end Cert.KernelIdeal.Blocks

end
-- ==== Proof.Glue.lean ====
/-
  The graph-convolution arithmetic that surrounds the three matrix products, as functions of whole arrays.

  An edge list e of two rows (sources, targets) over 600000 edges is extended by one self-loop per node: the
  50000 node numbers are appended to each row, giving 650000 sources s and 650000 targets d.  A node's degree is
  the number of entries of d equal to it (a sum of ones scattered at d); its weight is degree^(-1/2) where the
  degree is positive and 0 elsewhere.  An edge's coefficient is the product of the weights of its two ends.  One
  layer takes the rows h (50000 × 128), gathers row s(k) for every edge k, scales it by the edge's coefficient,
  sums the scaled rows into the rows d(k), and adds a bias to every row.  The rectifier replaces every entry by
  its maximum with zero.  A negative index counts from the end (50000 is added to it) before a row is looked up.
-/
import proofs.«173065_j62234076119723_2_alg».proof.KernelIdeal

noncomputable section

namespace Cert.KernelIdeal.Glue

open Cert.KernelIdeal Cert.KernelIdeal.Facts₀ Cert.KernelIdeal.Facts Idealize.ShloMosaic

variable {F : FTy → Type} [FloatOps F] [Cert.KernelIdeal.Facts]

/-- Row 0 of the edge list: the edges' sources. -/
def edgeRow0 (e : (⟨S2x600000, .i32⟩ : BufTy).Contents (Elt F)) : (⟨S600000, .i32⟩ : BufTy).Contents (Elt F) :=
  shapeCast S600000 (extractStridedSlice S1x600000 ![0, 0] e slices_S2x600000_S1x600000_0_0) shapeCasts_S1x600000_S600000

/-- Row 1 of the edge list: the edges' targets. -/
def edgeRow1 (e : (⟨S2x600000, .i32⟩ : BufTy).Contents (Elt F)) : (⟨S600000, .i32⟩ : BufTy).Contents (Elt F) :=
  shapeCast S600000 (extractStridedSlice S1x600000 ![1, 0] e slices_S2x600000_S1x600000_1_0) shapeCasts_S1x600000_S600000

/-- An end-point row followed by the node numbers 0 … 49999: one self-loop per node. -/
def withLoops (r : (⟨S600000, .i32⟩ : BufTy).Contents (Elt F)) : (⟨S650000, .i32⟩ : BufTy).Contents (Elt F) :=
  concatenate S650000 0 [⟨S600000, r⟩, ⟨S50000, iotaInDim S50000 32 0⟩] concatenates_S600000_S50000_S650000_d0

/-- The node weights: degree^(-1/2) where the degree (the number of targets equal to the node) is positive, 0 elsewhere. -/
def nodeWeight (d : (⟨S650000, .i32⟩ : BufTy).Contents (Elt F)) : (⟨S50000, .f32⟩ : BufTy).Contents (Elt F) :=
  select
    (cmpf .ogt
      (Host.scatterAdd scatter_S50000_S650000x1_S650000_n_0_0_1
        (broadcastInDim S50000 ![] bcast_S_S50000 (constant S_ .f32 0x00000000#32))
        (broadcastInDim S650000x1 ![0] bcast_S650000_S650000x1_0 d)
        (broadcastInDim S650000 ![] bcast_S_S650000 (constant S_ .f32 0x3F800000#32)) : (⟨S50000, .f32⟩ : BufTy).Contents (Elt F))
      (broadcastInDim S50000 ![] bcast_S_S50000 (constant S_ .f32 0x00000000#32)))
    (Host.rsqrt
      (Host.scatterAdd scatter_S50000_S650000x1_S650000_n_0_0_1
        (broadcastInDim S50000 ![] bcast_S_S50000 (constant S_ .f32 0x00000000#32))
        (broadcastInDim S650000x1 ![0] bcast_S650000_S650000x1_0 d)
        (broadcastInDim S650000 ![] bcast_S_S650000 (constant S_ .f32 0x3F800000#32))))
    (broadcastInDim S50000 ![] bcast_S_S50000 (id (constant S_ .f32 0x00000000#32)))

/-- Node numbers as a column of look-up positions, a negative one counted from the end. -/
def lookupColumn (v : (⟨S650000, .i32⟩ : BufTy).Contents (Elt F)) : (⟨S650000x1, .i32⟩ : BufTy).Contents (Elt F) :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

/-- An edge's coefficient: the weight of its source times the weight of its target. -/
def edgeCoeff (w : (⟨S50000, .f32⟩ : BufTy).Contents (Elt F)) (s d : (⟨S650000, .i32⟩ : BufTy).Contents (Elt F)) : (⟨S650000, .f32⟩ : BufTy).Contents (Elt F) :=
  mulf (Host.gather gather_S50000_S650000x1_S650000_n_0_n_n_0_1_1 w (lookupColumn s))
    (Host.gather gather_S50000_S650000x1_S650000_n_0_n_n_0_1_1 w (lookupColumn d))

/-- One layer's aggregation: every edge's source row scaled by the edge's coefficient, summed into its target row, plus the bias. -/
def aggregate (s d : (⟨S650000, .i32⟩ : BufTy).Contents (Elt F)) (cf : (⟨S650000, .f32⟩ : BufTy).Contents (Elt F))
    (h : (⟨S50000x128, .f32⟩ : BufTy).Contents (Elt F)) (b : (⟨S128, .f32⟩ : BufTy).Contents (Elt F)) : (⟨S50000x128, .f32⟩ : BufTy).Contents (Elt F) :=
  addf
    (Host.scatterAdd scatter_S50000x128_S650000x1_S650000x128_1_0_0_1
      (broadcastInDim S50000x128 ![] bcast_S_S50000x128 (constant S_ .f32 0x00000000#32))
      (broadcastInDim S650000x1 ![0] bcast_S650000_S650000x1_0 d)
      (mulf (Host.gather gather_S50000x128_S650000x1_S650000x128_1_0_n_n_0_1_1128 h (lookupColumn s))
        (broadcastInDim S650000x128 ![0, 1] bcast_S650000x1_S650000x128_0_1
          (broadcastInDim S650000x1 ![0] bcast_S650000_S650000x1_0 cf))))
    (broadcastInDim S50000x128 ![0, 1] bcast_S1x128_S50000x128_0_1 (broadcastInDim S1x128 ![1] bcast_S128_S1x128_1 b))

/-- The rectifier on a whole array: every entry's maximum with zero. -/
def rectify (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

/-- The bias spread over the 50000 rows. -/
def biasRows (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- The sources of the edge list e with the self-loops appended. -/
def sources (e : (⟨S2x600000, .i32⟩ : BufTy).Contents (Elt F)) : (⟨S650000, .i32⟩ : BufTy).Contents (Elt F) := withLoops (edgeRow0 e)

/-- The targets of the edge list e with the self-loops appended. -/
def targets (e : (⟨S2x600000, .i32⟩ : BufTy).Contents (Elt F)) : (⟨S650000, .i32⟩ : BufTy).Contents (Elt F) := withLoops (edgeRow1 e)

/-- The edge coefficients of the graph e: both layers use the same ones. -/
def coeffs (e : (⟨S2x600000, .i32⟩ : BufTy).Contents (Elt F)) : (⟨S650000, .f32⟩ : BufTy).Contents (Elt F) :=
  edgeCoeff (nodeWeight (targets e)) (sources e) (targets e)

/-- One layer's aggregation over the graph e of the rows h, plus the bias b. -/
def layer (e : (⟨S2x600000, .i32⟩ : BufTy).Contents (Elt F)) (h : (⟨S50000x128, .f32⟩ : BufTy).Contents (Elt F)) (b : (⟨S128, .f32⟩ : BufTy).Contents (Elt F)) : (⟨S50000x128, .f32⟩ : BufTy).Contents (Elt F) :=
  aggregate (sources e) (targets e) (coeffs e) h b

end Cert.KernelIdeal.Glue

end
-- ==== Proof.HostGlue.lean ====
/-
  What the kernel program's host operations compute between its three matrix-product regions, stretch by
  stretch, from ANY buffer contents W at the stretch's entry: the buffers a later stretch or region reads are the
  graph-convolution functions of the buffers the stretch itself reads, and the argument buffers pass through
  unchanged.
-/
import proofs.«173065_j62234076119723_2_alg».proof.Proof.Gen.KernelIdeal.Launch
import proofs.«173065_j62234076119723_2_alg».proof.Proof.Glue
import Idealize.ShloMosaic.Lib.StableHlo.Run

noncomputable section

namespace Cert.KernelIdeal.HostGlue

open Cert.KernelIdeal Cert.KernelIdeal.Gen Cert.KernelIdeal.Glue Idealize.ShloMosaic Idealize.ShloMosaic.TcCoe Idealize.SL.Sem Idealize.ShloMosaic.StableHlo

variable {F : FTy → Type} [FloatOps F]

/-- The host operations before the first region: the edge bookkeeping and the first layer's edge coefficients. -/
abbrev pre (W : Valuation τ sig (Elt F)) : Valuation τ sig (Elt F) :=
  StableHlo.after hostOps0_2 (StableHlo.after hostOps0_1 (StableHlo.after hostOps0 W))

/-- The host operations between the first and the second region: the first layer's aggregation and rectifier, the
    second layer's bookkeeping and edge coefficients. -/
abbrev mid (W : Valuation τ sig (Elt F)) : Valuation τ sig (Elt F) :=
  StableHlo.after hostOps1_4 (StableHlo.after hostOps1_3 (StableHlo.after hostOps1_2 (StableHlo.after hostOps1_1 (StableHlo.after hostOps1 W))))

/-- The host operations between the second and the third region: the second layer's aggregation. -/
abbrev post (W : Valuation τ sig (Elt F)) : Valuation τ sig (Elt F) := StableHlo.after hostOps2 W

/-- Reads a buffer after a literal stretch of host operations: one simplifier pass over the operations' results, then
    the remaining reads (those inside a joined list's entries) one rewrite at a time. -/
macro "host_results" : tactic =>
  `(tactic| (after_results_simp <;>
      (repeat (first
        | rw [nullary_result] | rw [unary_result] | rw [binary_result] | rw [ternary_result] | rw [reshape_result]
        | (rw [nullary_result_ne]; rotate_left; decide)
        | (rw [unary_result_ne]; rotate_left; decide)
        | (rw [binary_result_ne]; rotate_left; decide)
        | (rw [ternary_result_ne]; rotate_left; decide)
        | (rw [reshape_result_ne]; rotate_left; decide))) <;> rfl))

variable (W : Valuation τ sig (Elt F))

/-! ## Before the first region -/

theorem pre_v1 : pre W (Proc.devRef .tc main_v1) = edgeRow0 (W (Proc.devRef .tc main_arg1)) := by host_results
theorem pre_v3 : pre W (Proc.devRef .tc main_v3) = edgeRow1 (W (Proc.devRef .tc main_arg1)) := by host_results
theorem pre_v5 : pre W (Proc.devRef .tc main_v5) = withLoops (edgeRow0 (W (Proc.devRef .tc main_arg1))) := by host_results
theorem pre_v6 : pre W (Proc.devRef .tc main_v6) = withLoops (edgeRow1 (W (Proc.devRef .tc main_arg1))) := by host_results
set_option maxHeartbeats 1000000 in
theorem pre_v29 : pre W (Proc.devRef .tc main_v29)
    = edgeCoeff (nodeWeight (withLoops (edgeRow1 (W (Proc.devRef .tc main_arg1))))) (withLoops (edgeRow0 (W (Proc.devRef .tc main_arg1)))) (withLoops (edgeRow1 (W (Proc.devRef .tc main_arg1)))) := by
  host_results
theorem pre_arg0 : pre W (Proc.devRef .tc main_arg0) = W (Proc.devRef .tc main_arg0) := by host_results
theorem pre_arg2 : pre W (Proc.devRef .tc main_arg2) = W (Proc.devRef .tc main_arg2) := by host_results
theorem pre_arg3 : pre W (Proc.devRef .tc main_arg3) = W (Proc.devRef .tc main_arg3) := by host_results
theorem pre_arg4 : pre W (Proc.devRef .tc main_arg4) = W (Proc.devRef .tc main_arg4) := by host_results
theorem pre_arg5 : pre W (Proc.devRef .tc main_arg5) = W (Proc.devRef .tc main_arg5) := by host_results
theorem pre_arg6 : pre W (Proc.devRef .tc main_arg6) = W (Proc.devRef .tc main_arg6) := by host_results
theorem pre_arg7 : pre W (Proc.devRef .tc main_arg7) = W (Proc.devRef .tc main_arg7) := by host_results

/-! ## Between the first and the second region -/

set_option maxHeartbeats 1000000 in
theorem mid_v47 : mid W (Proc.devRef .tc main_v47)
    = rectify (aggregate (W (Proc.devRef .tc main_v5)) (W (Proc.devRef .tc main_v6)) (W (Proc.devRef .tc main_v29)) (W (Proc.devRef .tc main_v30)) (W (Proc.devRef .tc main_arg3))) := by
  host_results
theorem mid_v49 : mid W (Proc.devRef .tc main_v49) = withLoops (W (Proc.devRef .tc main_v1)) := by host_results
theorem mid_v50 : mid W (Proc.devRef .tc main_v50) = withLoops (W (Proc.devRef .tc main_v3)) := by host_results
set_option maxHeartbeats 1000000 in
theorem mid_v73 : mid W (Proc.devRef .tc main_v73)
    = edgeCoeff (nodeWeight (withLoops (W (Proc.devRef .tc main_v3)))) (withLoops (W (Proc.devRef .tc main_v1))) (withLoops (W (Proc.devRef .tc main_v3))) := by
  host_results
theorem mid_arg4 : mid W (Proc.devRef .tc main_arg4) = W (Proc.devRef .tc main_arg4) := by host_results
theorem mid_arg5 : mid W (Proc.devRef .tc main_arg5) = W (Proc.devRef .tc main_arg5) := by host_results
theorem mid_arg6 : mid W (Proc.devRef .tc main_arg6) = W (Proc.devRef .tc main_arg6) := by host_results
theorem mid_arg7 : mid W (Proc.devRef .tc main_arg7) = W (Proc.devRef .tc main_arg7) := by host_results

/-! ## Between the second and the third region -/

set_option maxHeartbeats 1000000 in
theorem post_v90 : post W (Proc.devRef .tc main_v90)
    = aggregate (W (Proc.devRef .tc main_v49)) (W (Proc.devRef .tc main_v50)) (W (Proc.devRef .tc main_v73)) (W (Proc.devRef .tc main_v74)) (W (Proc.devRef .tc main_arg5)) := by
  host_results
theorem post_arg6 : post W (Proc.devRef .tc main_arg6) = W (Proc.devRef .tc main_arg6) := by host_results
theorem post_arg7 : post W (Proc.devRef .tc main_arg7) = W (Proc.devRef .tc main_arg7) := by host_results

end Cert.KernelIdeal.HostGlue

end
-- ==== Proof.KValue.lean ====
/-
  The kernel program's result buffer as one function of its arguments.

  The contents of the buffers at each boundary between two segments of the program are walked forward from the launch
  memory: the edge bookkeeping before the first region, the first region's product, the first layer's aggregation and
  rectifier and the second layer's bookkeeping, the second region's product, the second layer's aggregation, and the
  third region's decoder layer.  A region changes only its result array; a stretch of host operations changes only
  the buffers it writes.
-/
import proofs.«173065_j62234076119723_2_alg».proof.Proof.Gen.KernelIdeal.Frame
import proofs.«173065_j62234076119723_2_alg».proof.Proof.Blocks
import proofs.«173065_j62234076119723_2_alg».proof.Proof.HostGlue

noncomputable section

namespace Cert.KernelIdeal.Result

open Cert.KernelIdeal Cert.KernelIdeal.Gen Cert.KernelIdeal.Glue Cert.KernelIdeal.Blocks Cert.KernelIdeal.HostGlue
open Idealize.ShloMosaic Idealize.ShloMosaic.TcCoe Idealize.SL.Sem

variable (m : (ℓ : Loc nD τ sig) → Buf (Elt Ideal) ℓ) (ρ : Dev nD → PrngReg) (c : Dev nD)

/-! ## At the first region's entry -/

theorem at3_v1 : W3 m ρ c (Proc.devRef .tc main_v1) = edgeRow0 (m ((c : Thread nD τ).loc main_arg1)) := pre_v1 (W0 m ρ c)
theorem at3_v3 : W3 m ρ c (Proc.devRef .tc main_v3) = edgeRow1 (m ((c : Thread nD τ).loc main_arg1)) := pre_v3 (W0 m ρ c)
theorem at3_v5 : W3 m ρ c (Proc.devRef .tc main_v5) = sources (m ((c : Thread nD τ).loc main_arg1)) := pre_v5 (W0 m ρ c)
theorem at3_v6 : W3 m ρ c (Proc.devRef .tc main_v6) = targets (m ((c : Thread nD τ).loc main_arg1)) := pre_v6 (W0 m ρ c)
theorem at3_v29 : W3 m ρ c (Proc.devRef .tc main_v29) = coeffs (m ((c : Thread nD τ).loc main_arg1)) := pre_v29 (W0 m ρ c)
theorem at3_arg0 : W3 m ρ c (Proc.devRef .tc main_arg0) = (m ((c : Thread nD τ).loc main_arg0)) := pre_arg0 (W0 m ρ c)
theorem at3_arg2 : W3 m ρ c (Proc.devRef .tc main_arg2) = (m ((c : Thread nD τ).loc main_arg2)) := pre_arg2 (W0 m ρ c)
theorem at3_arg3 : W3 m ρ c (Proc.devRef .tc main_arg3) = (m ((c : Thread nD τ).loc main_arg3)) := pre_arg3 (W0 m ρ c)
theorem at3_arg4 : W3 m ρ c (Proc.devRef .tc main_arg4) = (m ((c : Thread nD τ).loc main_arg4)) := pre_arg4 (W0 m ρ c)
theorem at3_arg5 : W3 m ρ c (Proc.devRef .tc main_arg5) = (m ((c : Thread nD τ).loc main_arg5)) := pre_arg5 (W0 m ρ c)
theorem at3_arg6 : W3 m ρ c (Proc.devRef .tc main_arg6) = (m ((c : Thread nD τ).loc main_arg6)) := pre_arg6 (W0 m ρ c)
theorem at3_arg7 : W3 m ρ c (Proc.devRef .tc main_arg7) = (m ((c : Thread nD τ).loc main_arg7)) := pre_arg7 (W0 m ρ c)

/-! ## At the first region's exit -/

theorem at4_v30 : W4 m ρ c (Proc.devRef .tc main_v30) = matProd (m ((c : Thread nD τ).loc main_arg0)) (m ((c : Thread nD τ).loc main_arg2)) :=
  (W4_arr m ρ c 2).trans ((final0 (V3 m ρ) c).trans (by
    show matProd (W3 m ρ c (Proc.devRef .tc main_arg0)) (W3 m ρ c (Proc.devRef .tc main_arg2)) = _
    rw [at3_arg0, at3_arg2]))
theorem at4_v1 : W4 m ρ c (Proc.devRef .tc main_v1) = edgeRow0 (m ((c : Thread nD τ).loc main_arg1)) := (W4_of_ne m ρ c main_v1 (by decide)).trans (at3_v1 m ρ c)
theorem at4_v3 : W4 m ρ c (Proc.devRef .tc main_v3) = edgeRow1 (m ((c : Thread nD τ).loc main_arg1)) := (W4_of_ne m ρ c main_v3 (by decide)).trans (at3_v3 m ρ c)
theorem at4_v5 : W4 m ρ c (Proc.devRef .tc main_v5) = sources (m ((c : Thread nD τ).loc main_arg1)) := (W4_of_ne m ρ c main_v5 (by decide)).trans (at3_v5 m ρ c)
theorem at4_v6 : W4 m ρ c (Proc.devRef .tc main_v6) = targets (m ((c : Thread nD τ).loc main_arg1)) := (W4_of_ne m ρ c main_v6 (by decide)).trans (at3_v6 m ρ c)
theorem at4_v29 : W4 m ρ c (Proc.devRef .tc main_v29) = coeffs (m ((c : Thread nD τ).loc main_arg1)) := (W4_of_ne m ρ c main_v29 (by decide)).trans (at3_v29 m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg7 : W4 m ρ c (Proc.devRef .tc main_arg7) = (m ((c : Thread nD τ).loc main_arg7)) := (W4_of_ne m ρ c main_arg7 (by decide)).trans (at3_arg7 m ρ c)

/-! ## At the second region's entry -/

theorem at9_v47 : W9 m ρ c (Proc.devRef .tc main_v47) = rectify (layer (m ((c : Thread nD τ).loc main_arg1)) (matProd (m ((c : Thread nD τ).loc main_arg0)) (m ((c : Thread nD τ).loc main_arg2))) (m ((c : Thread nD τ).loc main_arg3))) :=
  (mid_v47 (W4 m ρ c)).trans (by rw [at4_v5, at4_v6, at4_v29, at4_v30, at4_arg3]; rfl)
theorem at9_v49 : W9 m ρ c (Proc.devRef .tc main_v49) = sources (m ((c : Thread nD τ).loc main_arg1)) := (mid_v49 (W4 m ρ c)).trans (by rw [at4_v1]; rfl)
theorem at9_v50 : W9 m ρ c (Proc.devRef .tc main_v50) = targets (m ((c : Thread nD τ).loc main_arg1)) := (mid_v50 (W4 m ρ c)).trans (by rw [at4_v3]; rfl)
theorem at9_v73 : W9 m ρ c (Proc.devRef .tc main_v73) = coeffs (m ((c : Thread nD τ).loc main_arg1)) := (mid_v73 (W4 m ρ c)).trans (by rw [at4_v1, at4_v3]; rfl)
theorem at9_arg4 : W9 m ρ c (Proc.devRef .tc main_arg4) = (m ((c : Thread nD τ).loc main_arg4)) := (mid_arg4 (W4 m ρ c)).trans (at4_arg4 m ρ c)
theorem at9_arg5 : W9 m ρ c (Proc.devRef .tc main_arg5) = (m ((c : Thread nD τ).loc main_arg5)) := (mid_arg5 (W4 m ρ c)).trans (at4_arg5 m ρ c)
theorem at9_arg6 : W9 m ρ c (Proc.devRef .tc main_arg6) = (m ((c : Thread nD τ).loc main_arg6)) := (mid_arg6 (W4 m ρ c)).trans (at4_arg6 m ρ c)
theorem at9_arg7 : W9 m ρ c (Proc.devRef .tc main_arg7) = (m ((c : Thread nD τ).loc main_arg7)) := (mid_arg7 (W4 m ρ c)).trans (at4_arg7 m ρ c)

/-! ## At the second region's exit -/

theorem at10_v74 : W10 m ρ c (Proc.devRef .tc main_v74) = matProd (rectify (layer (m ((c : Thread nD τ).loc main_arg1)) (matProd (m ((c : Thread nD τ).loc main_arg0)) (m ((c : Thread nD τ).loc main_arg2))) (m ((c : Thread nD τ).loc main_arg3)))) (m ((c : Thread nD τ).loc main_arg4)) :=
  (W10_arr m ρ c 2).trans ((final1 (V9 m ρ) c).trans (by
    show matProd (W9 m ρ c (Proc.devRef .tc main_v47)) (W9 m ρ c (Proc.devRef .tc main_arg4)) = _
    rw [at9_v47, at9_arg4]))
theorem at10_v49 : W10 m ρ c (Proc.devRef .tc main_v49) = sources (m ((c : Thread nD τ).loc main_arg1)) := (W10_of_ne m ρ c main_v49 (by decide)).trans (at9_v49 m ρ c)
theorem at10_v50 : W10 m ρ c (Proc.devRef .tc main_v50) = targets (m ((c : Thread nD τ).loc main_arg1)) := (W10_of_ne m ρ c main_v50 (by decide)).trans (at9_v50 m ρ c)
theorem at10_v73 : W10 m ρ c (Proc.devRef .tc main_v73) = coeffs (m ((c : Thread nD τ).loc main_arg1)) := (W10_of_ne m ρ c main_v73 (by decide)).trans (at9_v73 m ρ c)
theorem at10_arg5 : W10 m ρ c (Proc.devRef .tc main_arg5) = (m ((c : Thread nD τ).loc main_arg5)) := (W10_of_ne m ρ c main_arg5 (by decide)).trans (at9_arg5 m ρ c)
theorem at10_arg6 : W10 m ρ c (Proc.devRef .tc main_arg6) = (m ((c : Thread nD τ).loc main_arg6)) := (W10_of_ne m ρ c main_arg6 (by decide)).trans (at9_arg6 m ρ c)
theorem at10_arg7 : W10 m ρ c (Proc.devRef .tc main_arg7) = (m ((c : Thread nD τ).loc main_arg7)) := (W10_of_ne m ρ c main_arg7 (by decide)).trans (at9_arg7 m ρ c)

/-! ## At the third region's entry -/

theorem at11_v90 : W11 m ρ c (Proc.devRef .tc main_v90) = layer (m ((c : Thread nD τ).loc main_arg1)) (matProd (rectify (layer (m ((c : Thread nD τ).loc main_arg1)) (matProd (m ((c : Thread nD τ).loc main_arg0)) (m ((c : Thread nD τ).loc main_arg2))) (m ((c : Thread nD τ).loc main_arg3)))) (m ((c : Thread nD τ).loc main_arg4))) (m ((c : Thread nD τ).loc main_arg5)) :=
  (post_v90 (W10 m ρ c)).trans (by rw [at10_v49, at10_v50, at10_v73, at10_v74, at10_arg5]; rfl)
theorem at11_arg6 : W11 m ρ c (Proc.devRef .tc main_arg6) = (m ((c : Thread nD τ).loc main_arg6)) := (post_arg6 (W10 m ρ c)).trans (at10_arg6 m ρ c)
theorem at11_arg7 : W11 m ρ c (Proc.devRef .tc main_arg7) = (m ((c : Thread nD τ).loc main_arg7)) := (post_arg7 (W10 m ρ c)).trans (at10_arg7 m ρ c)

/-! ## The result -/

/-- The kernel program's result as one function of its arguments: two graph-convolution layers with the rectifier
    between them, then the decoder layer. -/
def net (x : S50000x128.Idx → EReal) (e : (⟨S2x600000, .i32⟩ : BufTy).Contents (Elt Ideal)) (w1 : S128x128.Idx → EReal) (b1 : S128.Idx → EReal)
    (w2 : S128x128.Idx → EReal) (b2 : S128.Idx → EReal) (wd : S128x128.Idx → EReal) (bd : S128.Idx → EReal) : S50000x128.Idx → EReal :=
  denseRect (layer e (matProd (rectify (layer e (matProd x w1) b1)) w2) b2) wd bd

theorem result : W12 m ρ c (Proc.devRef .tc main_v91)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 3).trans ((final2 (V11 m ρ) c).trans (by
    show denseRect (W11 m ρ c (Proc.devRef .tc main_v90)) (W11 m ρ c (Proc.devRef .tc main_arg6)) (W11 m ρ c (Proc.devRef .tc main_arg7)) = _
    rw [at11_v90, at11_arg6, at11_arg7]
    rfl))

end Cert.KernelIdeal.Result

end
-- ==== Proof.RefRun.lean ====
/-
  The reference program's run, read as a fold.

  The reference is a straight line of 126 host operations.  They are listed here in six consecutive stretches:
  the edge bookkeeping up to the first layer's edge coefficients (40 operations), the first matrix product, the
  first layer's aggregation and rectifier followed by the second layer's bookkeeping (58 operations), the second
  matrix product, the second layer's aggregation (19 operations), and the decoder (the third product, its bias and
  the rectifier: 7 operations).  Every weakly fair execution terminates, and every buffer ends at the fold of the
  six stretches, in order, over the launch contents.
-/
import proofs.«173065_j62234076119723_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- Edge bookkeeping and the first layer's edge coefficients. -/
abbrev opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_v4 (iotaInDim S50000 32 0),
    binary main_v1 main_v4 main_v5 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_v3 main_v4 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v7 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S650000x1 ![0] bcast_S650000_S650000x1_0 : (⟨S650000, .i32⟩ : BufTy).Contents (Elt F) → (⟨S650000x1, .i32⟩ : BufTy).Contents (Elt F)),
    ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S650000 ![] bcast_S_S650000 : (⟨S_, .i32⟩ : BufTy).Contents (Elt F) → (⟨S650000, .i32⟩ : BufTy).Contents (Elt F)),
    binary main_v5 main_v15 main_v16 (cmpi .slt : (⟨S650000, .i32⟩ : BufTy).Contents (Elt F) → (⟨S650000, .i32⟩ : BufTy).Contents (Elt F) → (⟨S650000, .i1⟩ : BufTy).Contents (Elt F)),
    nullary main_c_3 (constantI S_ 32 50000#32),
    unary main_c_3 main_v17 (broadcastInDim S650000 ![] bcast_S_S650000 : (⟨S_, .i32⟩ : BufTy).Contents (Elt F) → (⟨S650000, .i32⟩ : BufTy).Contents (Elt F)),
    binary main_v5 main_v17 main_v18 (addi : (⟨S650000, .i32⟩ : BufTy).Contents (Elt F) → (⟨S650000, .i32⟩ : BufTy).Contents (Elt F) → (⟨S650000, .i32⟩ : BufTy).Contents (Elt F)),
    ternary main_v16 main_v18 main_v5 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v19 main_v20 (broadcastInDim S650000x1 ![0] bcast_S650000_S650000x1_0 : (⟨S650000, .i32⟩ : BufTy).Contents (Elt F) → (⟨S650000x1, .i32⟩ : BufTy).Contents (Elt F)),
    binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_4 (constantI S_ 32 0#32),
    unary main_c_4 main_v22 (broadcastInDim S650000 ![] bcast_S_S650000 : (⟨S_, .i32⟩ : BufTy).Contents (Elt F) → (⟨S650000, .i32⟩ : BufTy).Contents (Elt F)),
    binary main_v6 main_v22 main_v23 (cmpi .slt : (⟨S650000, .i32⟩ : BufTy).Contents (Elt F) → (⟨S650000, .i32⟩ : BufTy).Contents (Elt F) → (⟨S650000, .i1⟩ : BufTy).Contents (Elt F)),
    nullary main_c_5 (constantI S_ 32 50000#32),
    unary main_c_5 main_v24 (broadcastInDim S650000 ![] bcast_S_S650000 : (⟨S_, .i32⟩ : BufTy).Contents (Elt F) → (⟨S650000, .i32⟩ : BufTy).Contents (Elt F)),
    binary main_v6 main_v24 main_v25 (addi : (⟨S650000, .i32⟩ : BufTy).Contents (Elt F) → (⟨S650000, .i32⟩ : BufTy).Contents (Elt F) → (⟨S650000, .i32⟩ : BufTy).Contents (Elt F)),
    ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v26 main_v27 (broadcastInDim S650000x1 ![0] bcast_S650000_S650000x1_0 : (⟨S650000, .i32⟩ : BufTy).Contents (Elt F) → (⟨S650000x1, .i32⟩ : BufTy).Contents (Elt F)),
    binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v21 main_v28 main_v29 (mulf : (⟨S650000, .f32⟩ : BufTy).Contents (Elt F) → (⟨S650000, .f32⟩ : BufTy).Contents (Elt F) → (⟨S650000, .f32⟩ : BufTy).Contents (Elt F)) ]

/-- The first matrix product. -/
abbrev opsB : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The first layer's aggregation and rectifier, then the second layer's bookkeeping and edge coefficients. -/
abbrev opsC : List (HloOp τ sig (Elt F)) :=
  [ nullary main_c_6 (constantI S_ 32 0#32),
    unary main_c_6 main_v31 (broadcastInDim S650000 ![] bcast_S_S650000 : (⟨S_, .i32⟩ : BufTy).Contents (Elt F) → (⟨S650000, .i32⟩ : BufTy).Contents (Elt F)),
    binary main_v5 main_v31 main_v32 (cmpi .slt : (⟨S650000, .i32⟩ : BufTy).Contents (Elt F) → (⟨S650000, .i32⟩ : BufTy).Contents (Elt F) → (⟨S650000, .i1⟩ : BufTy).Contents (Elt F)),
    nullary main_c_7 (constantI S_ 32 50000#32),
    unary main_c_7 main_v33 (broadcastInDim S650000 ![] bcast_S_S650000 : (⟨S_, .i32⟩ : BufTy).Contents (Elt F) → (⟨S650000, .i32⟩ : BufTy).Contents (Elt F)),
    binary main_v5 main_v33 main_v34 (addi : (⟨S650000, .i32⟩ : BufTy).Contents (Elt F) → (⟨S650000, .i32⟩ : BufTy).Contents (Elt F) → (⟨S650000, .i32⟩ : BufTy).Contents (Elt F)),
    ternary main_v32 main_v34 main_v5 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v35 main_v36 (broadcastInDim S650000x1 ![0] bcast_S650000_S650000x1_0 : (⟨S650000, .i32⟩ : BufTy).Contents (Elt F) → (⟨S650000x1, .i32⟩ : BufTy).Contents (Elt F)),
    binary main_v30 main_v36 main_v37 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v29 main_v38 (broadcastInDim S650000x1 ![0] bcast_S650000_S650000x1_0 : (⟨S650000, .f32⟩ : BufTy).Contents (Elt F) → (⟨S650000x1, .f32⟩ : BufTy).Contents (Elt F)),
    unary main_v38 main_v39 (broadcastInDim S650000x128 ![0, 1] bcast_S650000x1_S650000x128_0_1 : (⟨S650000x1, .f32⟩ : BufTy).Contents (Elt F) → (⟨S650000x128, .f32⟩ : BufTy).Contents (Elt F)),
    binary main_v37 main_v39 main_v40 (mulf : (⟨S650000x128, .f32⟩ : BufTy).Contents (Elt F) → (⟨S650000x128, .f32⟩ : BufTy).Contents (Elt F) → (⟨S650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S650000x1 ![0] bcast_S650000_S650000x1_0 : (⟨S650000, .i32⟩ : BufTy).Contents (Elt F) → (⟨S650000x1, .i32⟩ : BufTy).Contents (Elt F)),
    ternary main_v41 main_v42 main_v40 main_v43 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    nullary main_v48 (iotaInDim S50000 32 0),
    binary main_v1 main_v48 main_v49 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_v3 main_v48 main_v50 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst_9 (constant S_ .f32 0x3F800000#32),
    unary main_cst_9 main_v51 (broadcastInDim S650000 ![] bcast_S_S650000 : (⟨S_, .f32⟩ : BufTy).Contents (Elt F) → (⟨S650000, .f32⟩ : BufTy).Contents (Elt F)),
    nullary main_cst_10 (constant S_ .f32 0x00000000#32),
    unary main_cst_10 main_v52 (broadcastInDim S50000 ![] bcast_S_S50000 : (⟨S_, .f32⟩ : BufTy).Contents (Elt F) → (⟨S50000, .f32⟩ : BufTy).Contents (Elt F)),
    unary main_v50 main_v53 (broadcastInDim S650000x1 ![0] bcast_S650000_S650000x1_0 : (⟨S650000, .i32⟩ : BufTy).Contents (Elt F) → (⟨S650000x1, .i32⟩ : BufTy).Contents (Elt F)),
    ternary main_v52 main_v53 main_v51 main_v54 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_11 (constant S_ .f32 0x00000000#32),
    unary main_cst_11 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    unary main_v54 main_v57 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v56) (TRef.of (T := ⟨S50000, .f32⟩) main_v57) (TRef.of (T := ⟨S50000, .f32⟩) main_call2_v1) (TRef.of (T := ⟨S50000, .f32⟩) main_v58) select,
    nullary main_c_13 (constantI S_ 32 0#32),
    unary main_c_13 main_v59 (broadcastInDim S650000 ![] bcast_S_S650000 : (⟨S_, .i32⟩ : BufTy).Contents (Elt F) → (⟨S650000, .i32⟩ : BufTy).Contents (Elt F)),
    binary main_v49 main_v59 main_v60 (cmpi .slt : (⟨S650000, .i32⟩ : BufTy).Contents (Elt F) → (⟨S650000, .i32⟩ : BufTy).Contents (Elt F) → (⟨S650000, .i1⟩ : BufTy).Contents (Elt F)),
    nullary main_c_14 (constantI S_ 32 50000#32),
    unary main_c_14 main_v61 (broadcastInDim S650000 ![] bcast_S_S650000 : (⟨S_, .i32⟩ : BufTy).Contents (Elt F) → (⟨S650000, .i32⟩ : BufTy).Contents (Elt F)),
    binary main_v49 main_v61 main_v62 (addi : (⟨S650000, .i32⟩ : BufTy).Contents (Elt F) → (⟨S650000, .i32⟩ : BufTy).Contents (Elt F) → (⟨S650000, .i32⟩ : BufTy).Contents (Elt F)),
    ternary main_v60 main_v62 main_v49 main_v63 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v63 main_v64 (broadcastInDim S650000x1 ![0] bcast_S650000_S650000x1_0 : (⟨S650000, .i32⟩ : BufTy).Contents (Elt F) → (⟨S650000x1, .i32⟩ : BufTy).Contents (Elt F)),
    binary main_v58 main_v64 main_v65 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_15 (constantI S_ 32 0#32),
    unary main_c_15 main_v66 (broadcastInDim S650000 ![] bcast_S_S650000 : (⟨S_, .i32⟩ : BufTy).Contents (Elt F) → (⟨S650000, .i32⟩ : BufTy).Contents (Elt F)),
    binary main_v50 main_v66 main_v67 (cmpi .slt : (⟨S650000, .i32⟩ : BufTy).Contents (Elt F) → (⟨S650000, .i32⟩ : BufTy).Contents (Elt F) → (⟨S650000, .i1⟩ : BufTy).Contents (Elt F)),
    nullary main_c_16 (constantI S_ 32 50000#32),
    unary main_c_16 main_v68 (broadcastInDim S650000 ![] bcast_S_S650000 : (⟨S_, .i32⟩ : BufTy).Contents (Elt F) → (⟨S650000, .i32⟩ : BufTy).Contents (Elt F)),
    binary main_v50 main_v68 main_v69 (addi : (⟨S650000, .i32⟩ : BufTy).Contents (Elt F) → (⟨S650000, .i32⟩ : BufTy).Contents (Elt F) → (⟨S650000, .i32⟩ : BufTy).Contents (Elt F)),
    ternary main_v67 main_v69 main_v50 main_v70 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v70 main_v71 (broadcastInDim S650000x1 ![0] bcast_S650000_S650000x1_0 : (⟨S650000, .i32⟩ : BufTy).Contents (Elt F) → (⟨S650000x1, .i32⟩ : BufTy).Contents (Elt F)),
    binary main_v58 main_v71 main_v72 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v65 main_v72 main_v73 (mulf : (⟨S650000, .f32⟩ : BufTy).Contents (Elt F) → (⟨S650000, .f32⟩ : BufTy).Contents (Elt F) → (⟨S650000, .f32⟩ : BufTy).Contents (Elt F)) ]

/-- The second matrix product. -/
abbrev opsD : List (HloOp τ sig (Elt F)) :=
  [ binary main_v47 main_arg4 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The second layer's aggregation. -/
abbrev opsE : List (HloOp τ sig (Elt F)) :=
  [ nullary main_c_17 (constantI S_ 32 0#32),
    unary main_c_17 main_v75 (broadcastInDim S650000 ![] bcast_S_S650000 : (⟨S_, .i32⟩ : BufTy).Contents (Elt F) → (⟨S650000, .i32⟩ : BufTy).Contents (Elt F)),
    binary main_v49 main_v75 main_v76 (cmpi .slt : (⟨S650000, .i32⟩ : BufTy).Contents (Elt F) → (⟨S650000, .i32⟩ : BufTy).Contents (Elt F) → (⟨S650000, .i1⟩ : BufTy).Contents (Elt F)),
    nullary main_c_18 (constantI S_ 32 50000#32),
    unary main_c_18 main_v77 (broadcastInDim S650000 ![] bcast_S_S650000 : (⟨S_, .i32⟩ : BufTy).Contents (Elt F) → (⟨S650000, .i32⟩ : BufTy).Contents (Elt F)),
    binary main_v49 main_v77 main_v78 (addi : (⟨S650000, .i32⟩ : BufTy).Contents (Elt F) → (⟨S650000, .i32⟩ : BufTy).Contents (Elt F) → (⟨S650000, .i32⟩ : BufTy).Contents (Elt F)),
    ternary main_v76 main_v78 main_v49 main_v79 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v79 main_v80 (broadcastInDim S650000x1 ![0] bcast_S650000_S650000x1_0 : (⟨S650000, .i32⟩ : BufTy).Contents (Elt F) → (⟨S650000x1, .i32⟩ : BufTy).Contents (Elt F)),
    binary main_v74 main_v80 main_v81 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v73 main_v82 (broadcastInDim S650000x1 ![0] bcast_S650000_S650000x1_0 : (⟨S650000, .f32⟩ : BufTy).Contents (Elt F) → (⟨S650000x1, .f32⟩ : BufTy).Contents (Elt F)),
    unary main_v82 main_v83 (broadcastInDim S650000x128 ![0, 1] bcast_S650000x1_S650000x128_0_1 : (⟨S650000x1, .f32⟩ : BufTy).Contents (Elt F) → (⟨S650000x128, .f32⟩ : BufTy).Contents (Elt F)),
    binary main_v81 main_v83 main_v84 (mulf : (⟨S650000x128, .f32⟩ : BufTy).Contents (Elt F) → (⟨S650000x128, .f32⟩ : BufTy).Contents (Elt F) → (⟨S650000x128, .f32⟩ : BufTy).Contents (Elt F)),
    nullary main_cst_19 (constant S_ .f32 0x00000000#32),
    unary main_cst_19 main_v85 (broadcastInDim S50000x128 ![] bcast_S_S50000x128 : (⟨S_, .f32⟩ : BufTy).Contents (Elt F) → (⟨S50000x128, .f32⟩ : BufTy).Contents (Elt F)),
    unary main_v50 main_v86 (broadcastInDim S650000x1 ![0] bcast_S650000_S650000x1_0 : (⟨S650000, .i32⟩ : BufTy).Contents (Elt F) → (⟨S650000x1, .i32⟩ : BufTy).Contents (Elt F)),
    ternary main_v85 main_v86 main_v84 main_v87 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg5 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)) ]

/-- The decoder: the third product, its bias, the rectifier. -/
abbrev opsT : List (HloOp τ sig (Elt F)) :=
  [ binary main_v90 main_arg6 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v91 main_v93 main_v94 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v94) (TRef.of (T := ⟨S50000x128, .f32⟩) main_call3_v0) (TRef.of (T := ⟨S50000x128, .f32⟩) main_v95) maximumf ]

/-- The whole program: the six stretches in order. -/
abbrev ops : List (HloOp τ sig (Elt F)) := opsA ++ (opsB ++ (opsC ++ (opsD ++ (opsE ++ opsT))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- Running two lists one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsB_sub : (opsB : List (HloOp τ sig (Elt F))).Forall fun op => op.bufs ⊆ tcRefs τ sig :=
  binary_bufs_sub ..
set_option maxRecDepth 8192 in
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsD_sub : (opsD : List (HloOp τ sig (Elt F))).Forall fun op => op.bufs ⊆ tcRefs τ sig :=
  binary_bufs_sub ..
set_option maxRecDepth 8192 in
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsT_sub : (opsT : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  forall_append opsA_sub (forall_append opsB_sub (forall_append opsC_sub (forall_append opsD_sub (forall_append opsE_sub opsT_sub))))

/-- No operation of a literal stretch allocates a buffer. -/
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h
theorem opsE_fresh : ∀ op ∈ (opsE : List (HloOp τ sig (Elt F))), op.fresh = ∅ := by
  intro _ h; (repeat (cases h with | head => rfl | tail _ h => ?_)); exact nomatch h
theorem opsT_fresh : ∀ op ∈ (opsT : List (HloOp τ sig (Elt F))), op.fresh = ∅ := by
  intro _ h; (repeat (cases h with | head => rfl | tail _ h => ?_)); exact nomatch h

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op h => (List.mem_append.mp h).elim (h₁ op) (h₂ op)

theorem ops_fresh : ∀ op ∈ (ops : List (HloOp τ sig (Elt F))), op.fresh = ∅ :=
  fresh_append opsA_fresh (fresh_append opsB_fresh (fresh_append opsC_fresh (fresh_append opsD_fresh (fresh_append opsE_fresh opsT_fresh))))

/-- The fold of the whole program is the six stretches' folds, one inside the other. -/
theorem after_ops (V : Valuation τ sig (Elt F)) :
    after ops V = after opsT (after opsE (after opsD (after opsC (after opsB (after opsA V))))) := by
  unfold ops
  rw [after_append, after_append, after_append, after_append, after_append]

/-- On every device, from any memory with zero counters: every weakly fair execution of @main terminates with every
    buffer at the fold of the operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.HostRun

end
-- ==== Proof.RefGlue.lean ====
/-
  What the reference program's host operations compute, stretch by stretch, from ANY buffer contents W at a
  stretch's entry, and the whole program's result as one function of the arguments: two graph-convolution layers,
  each a matrix product followed by the aggregation over the graph, the rectifier between them, and the decoder (a
  third product, its bias, the rectifier).
-/
import proofs.«173065_j62234076119723_2_alg».proof.Proof.RefRun
import proofs.«173065_j62234076119723_2_alg».proof.Proof.Gen.KernelIdeal
import proofs.«173065_j62234076119723_2_alg».proof.Proof.Glue

noncomputable section

namespace Cert.ReferenceIdeal.HostGlue

open Cert.ReferenceIdeal Cert.ReferenceIdeal.HostRun Cert.KernelIdeal.Glue Idealize.ShloMosaic Idealize.ShloMosaic.TcCoe Idealize.SL.Sem Idealize.ShloMosaic.StableHlo

variable {F : FTy → Type} [FloatOps F]

/-- Reads a buffer after a literal stretch of host operations: one simplifier pass over the operations' results, then
    the remaining reads (those inside a joined list's entries) one rewrite at a time. -/
macro "host_results" : tactic =>
  `(tactic| (after_results_simp <;>
      (repeat (first
        | rw [nullary_result] | rw [unary_result] | rw [binary_result] | rw [ternary_result] | rw [reshape_result]
        | (rw [nullary_result_ne]; rotate_left; decide)
        | (rw [unary_result_ne]; rotate_left; decide)
        | (rw [binary_result_ne]; rotate_left; decide)
        | (rw [ternary_result_ne]; rotate_left; decide)
        | (rw [reshape_result_ne]; rotate_left; decide))) <;> rfl))

variable (W : Valuation τ sig (Elt F))

/-! ## The edge bookkeeping -/

theorem A_v1 : after opsA W (Proc.devRef .tc main_v1) = edgeRow0 (W (Proc.devRef .tc main_arg1)) := by host_results
theorem A_v3 : after opsA W (Proc.devRef .tc main_v3) = edgeRow1 (W (Proc.devRef .tc main_arg1)) := by host_results
theorem A_v5 : after opsA W (Proc.devRef .tc main_v5) = sources (W (Proc.devRef .tc main_arg1)) := by host_results
theorem A_v6 : after opsA W (Proc.devRef .tc main_v6) = targets (W (Proc.devRef .tc main_arg1)) := by host_results
set_option maxHeartbeats 1000000 in
theorem A_v29 : after opsA W (Proc.devRef .tc main_v29) = coeffs (W (Proc.devRef .tc main_arg1)) := by host_results
theorem A_arg0 : after opsA W (Proc.devRef .tc main_arg0) = W (Proc.devRef .tc main_arg0) := by host_results
theorem A_arg2 : after opsA W (Proc.devRef .tc main_arg2) = W (Proc.devRef .tc main_arg2) := by host_results
theorem A_arg3 : after opsA W (Proc.devRef .tc main_arg3) = W (Proc.devRef .tc main_arg3) := by host_results
theorem A_arg4 : after opsA W (Proc.devRef .tc main_arg4) = W (Proc.devRef .tc main_arg4) := by host_results
theorem A_arg5 : after opsA W (Proc.devRef .tc main_arg5) = W (Proc.devRef .tc main_arg5) := by host_results
theorem A_arg6 : after opsA W (Proc.devRef .tc main_arg6) = W (Proc.devRef .tc main_arg6) := by host_results
theorem A_arg7 : after opsA W (Proc.devRef .tc main_arg7) = W (Proc.devRef .tc main_arg7) := by host_results

/-! ## The first product, the first layer's aggregation and rectifier, the second layer's bookkeeping -/

set_option maxHeartbeats 1000000 in
theorem BC_v47 : after opsC (after opsB W) (Proc.devRef .tc main_v47)
    = rectify (aggregate (W (Proc.devRef .tc main_v5)) (W (Proc.devRef .tc main_v6)) (W (Proc.devRef .tc main_v29))
        (Host.dotGeneral dot_S50000x128_S128x128_S50000x128_1_0_0_1_n_n none (W (Proc.devRef .tc main_arg0)) (W (Proc.devRef .tc main_arg2))) (W (Proc.devRef .tc main_arg3))) := by
  host_results
theorem BC_v49 : after opsC (after opsB W) (Proc.devRef .tc main_v49) = withLoops (W (Proc.devRef .tc main_v1)) := by host_results
theorem BC_v50 : after opsC (after opsB W) (Proc.devRef .tc main_v50) = withLoops (W (Proc.devRef .tc main_v3)) := by host_results
set_option maxHeartbeats 1000000 in
theorem BC_v73 : after opsC (after opsB W) (Proc.devRef .tc main_v73)
    = edgeCoeff (nodeWeight (withLoops (W (Proc.devRef .tc main_v3)))) (withLoops (W (Proc.devRef .tc main_v1))) (withLoops (W (Proc.devRef .tc main_v3))) := by
  host_results
theorem BC_arg4 : after opsC (after opsB W) (Proc.devRef .tc main_arg4) = W (Proc.devRef .tc main_arg4) := by host_results
theorem BC_arg5 : after opsC (after opsB W) (Proc.devRef .tc main_arg5) = W (Proc.devRef .tc main_arg5) := by host_results
theorem BC_arg6 : after opsC (after opsB W) (Proc.devRef .tc main_arg6) = W (Proc.devRef .tc main_arg6) := by host_results
theorem BC_arg7 : after opsC (after opsB W) (Proc.devRef .tc main_arg7) = W (Proc.devRef .tc main_arg7) := by host_results

/-! ## The second product and the second layer's aggregation -/

set_option maxHeartbeats 1000000 in
theorem DE_v90 : after opsE (after opsD W) (Proc.devRef .tc main_v90)
    = aggregate (W (Proc.devRef .tc main_v49)) (W (Proc.devRef .tc main_v50)) (W (Proc.devRef .tc main_v73))
        (Host.dotGeneral dot_S50000x128_S128x128_S50000x128_1_0_0_1_n_n none (W (Proc.devRef .tc main_v47)) (W (Proc.devRef .tc main_arg4))) (W (Proc.devRef .tc main_arg5)) := by
  host_results
theorem DE_arg6 : after opsE (after opsD W) (Proc.devRef .tc main_arg6) = W (Proc.devRef .tc main_arg6) := by host_results
theorem DE_arg7 : after opsE (after opsD W) (Proc.devRef .tc main_arg7) = W (Proc.devRef .tc main_arg7) := by host_results

/-! ## The decoder -/

theorem T_v95 : after opsT W (Proc.devRef .tc main_v95)
    = rectify (addf (Host.dotGeneral dot_S50000x128_S128x128_S50000x128_1_0_0_1_n_n none (W (Proc.devRef .tc main_v90)) (W (Proc.devRef .tc main_arg6))) (biasRows (W (Proc.devRef .tc main_arg7)))) := by
  host_results

/-! ## The whole program -/

/-- The reference's result as one function of its arguments. -/
def net (x : (⟨S50000x128, .f32⟩ : BufTy).Contents (Elt F)) (e : (⟨S2x600000, .i32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (wd : (⟨S128x128, .f32⟩ : BufTy).Contents (Elt F)) (bd : (⟨S128, .f32⟩ : BufTy).Contents (Elt F)) : (⟨S50000x128, .f32⟩ : BufTy).Contents (Elt F) :=
  rectify (addf (Host.dotGeneral dot_S50000x128_S128x128_S50000x128_1_0_0_1_n_n none (layer e (Host.dotGeneral dot_S50000x128_S128x128_S50000x128_1_0_0_1_n_n none (rectify (layer e (Host.dotGeneral dot_S50000x128_S128x128_S50000x128_1_0_0_1_n_n none x w1) b1)) w2) b2) wd) (biasRows bd))

theorem ref_v95 : after ops W (Proc.devRef .tc main_v95)
    = net (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [after_ops, T_v95, DE_v90, DE_arg6, DE_arg7, BC_v47, BC_v49, BC_v50, BC_v73, BC_arg4, BC_arg5, BC_arg6, BC_arg7,
    A_v1, A_v3, A_v5, A_v6, A_v29, A_arg0, A_arg2, A_arg3, A_arg4, A_arg5, A_arg6, A_arg7]
  rfl

end Cert.ReferenceIdeal.HostGlue

end
-- ==== Proof.RefArgs.lean ====
/-
  No operation of the reference program writes an argument buffer: after the whole program each of the eight
  argument buffers holds what it held at the start, whatever that was.
-/
import proofs.«173065_j62234076119723_2_alg».proof.Proof.RefRun

noncomputable section

namespace Cert.ReferenceIdeal.HostArgs

open Cert.ReferenceIdeal Cert.ReferenceIdeal.HostRun Idealize.ShloMosaic Idealize.ShloMosaic.TcCoe Idealize.SL.Sem Idealize.ShloMosaic.StableHlo

variable {F : FTy → Type} [FloatOps F]

variable (W : Valuation τ sig (Elt F))

set_option maxHeartbeats 4000000 in
theorem kept_arg0 : after ops W (Proc.devRef .tc main_arg0) = W (Proc.devRef .tc main_arg0) := by
  rw [after_ops]
  after_results_simp
set_option maxHeartbeats 4000000 in
theorem kept_arg1 : after ops W (Proc.devRef .tc main_arg1) = W (Proc.devRef .tc main_arg1) := by
  rw [after_ops]
  after_results_simp
set_option maxHeartbeats 4000000 in
theorem kept_arg2 : after ops W (Proc.devRef .tc main_arg2) = W (Proc.devRef .tc main_arg2) := by
  rw [after_ops]
  after_results_simp
set_option maxHeartbeats 4000000 in
theorem kept_arg3 : after ops W (Proc.devRef .tc main_arg3) = W (Proc.devRef .tc main_arg3) := by
  rw [after_ops]
  after_results_simp
set_option maxHeartbeats 4000000 in
theorem kept_arg4 : after ops W (Proc.devRef .tc main_arg4) = W (Proc.devRef .tc main_arg4) := by
  rw [after_ops]
  after_results_simp
set_option maxHeartbeats 4000000 in
theorem kept_arg5 : after ops W (Proc.devRef .tc main_arg5) = W (Proc.devRef .tc main_arg5) := by
  rw [after_ops]
  after_results_simp
set_option maxHeartbeats 4000000 in
theorem kept_arg6 : after ops W (Proc.devRef .tc main_arg6) = W (Proc.devRef .tc main_arg6) := by
  rw [after_ops]
  after_results_simp
set_option maxHeartbeats 4000000 in
theorem kept_arg7 : after ops W (Proc.devRef .tc main_arg7) = W (Proc.devRef .tc main_arg7) := by
  rw [after_ops]
  after_results_simp

end Cert.ReferenceIdeal.HostArgs

end
-- ==== Proof.Bridge.lean ====
/-
  The two programs compute one function.

  At the exact values the host's dot_general of a 50000 × 128 array with a 128 × 128 matrix is the product read entry
  by entry (row times matrix, at the column), which is what each kernel region leaves in its result array; and the
  reference's decoder — the product, plus the bias spread over the rows, then the maximum with a zero array — is, entry
  by entry, the product plus the bias at the column, then the maximum with zero, which is what the third region
  leaves.  Everything else — the edge bookkeeping, the degrees, the gathers and the scattered sums — is the same
  operations applied to equal arrays, and is never opened.
-/
import proofs.«173065_j62234076119723_2_alg».proof.Proof.RefGlue
import proofs.«173065_j62234076119723_2_alg».proof.Proof.KValue
import Idealize.ShloMosaic.Lib.Pipeline.Value
import Idealize.ShloMosaic.Lib.ValueIdx

noncomputable section

namespace Cert.Bridge

open Cert.KernelIdeal.Glue Cert.KernelIdeal.Blocks Cert.RowDot
open Idealize.ShloMosaic Idealize.ShloMosaic.ValueIdx

/-- The host's dot_general is the product read entry by entry. -/
theorem dot_eq (x : FVec Ideal Cert.KernelIdeal.S50000x128 .f32) (w : FVec Ideal Cert.KernelIdeal.S128x128 .f32) :
    Host.dotGeneral (F := Ideal) Cert.ReferenceIdeal.dot_S50000x128_S128x128_S50000x128_1_0_0_1_n_n none x w = matProd x w := by
  funext j
  simp only [Host.dotGeneral]
  exact dotGeneral_plain_apply none _ x w j

/-- The bias spread over the rows, at entry (r, q), is the bias at q. -/
theorem biasRows_apply (b : (⟨Cert.KernelIdeal.S128, .f32⟩ : BufTy).Contents (Elt Ideal)) (r : Fin 50000) (q : Fin 128) :
    biasRows (F := Ideal) b (ix2 r q) = b (ix1 q) := by
  unfold biasRows
  refine (broadcastInDim_apply _ _ _ (ix2 r q) (ix2 (0 : Fin 1) q) (fun a => ?_)).trans
    (broadcastInDim_apply _ _ b (ix2 (0 : Fin 1) q) (ix1 q) (fun a => ?_))
  · match a with
    | ⟨0, _⟩ => rfl
    | ⟨1, _⟩ => rfl
  · match a with
    | ⟨0, _⟩ => rfl

/-- The zero array at any entry is the number the all-zero word denotes. -/
theorem zeros_apply (j : Cert.KernelIdeal.S50000x128.Idx) :
    broadcastInDim Cert.KernelIdeal.S50000x128 ![] Cert.KernelIdeal.Facts₀.bcast_S_S50000x128 (constant (F := Ideal) Cert.KernelIdeal.S_ .f32 0x00000000#32) j
      = Ideal.ofBits .f32 0x00000000#32 :=
  (broadcastInDim_apply _ _ _ j (fun a => a.elim0) (fun a => a.elim0)).trans rfl

/-- The reference's decoder is the third region's layer. -/
theorem decoder_eq (h : (⟨Cert.KernelIdeal.S50000x128, .f32⟩ : BufTy).Contents (Elt Ideal)) (wd : (⟨Cert.KernelIdeal.S128x128, .f32⟩ : BufTy).Contents (Elt Ideal)) (bd : (⟨Cert.KernelIdeal.S128, .f32⟩ : BufTy).Contents (Elt Ideal)) :
    rectify (F := Ideal) (addf (matProd h wd) (biasRows bd)) = denseRect h wd bd := by
  funext j
  obtain ⟨r, q, rfl⟩ : ∃ (r : Fin 50000) (q : Fin 128), j = ix2 r q := ⟨j 0, j 1, eq_ix2 j⟩
  unfold rectify
  refine (maximumf_apply _ _ (ix2 r q)).trans ?_
  refine congrArg₂ max ((addf_apply _ _ (ix2 r q)).trans ?_) (zeros_apply (ix2 r q))
  exact congrArg₂ (fun a b : EReal => a + b) rfl (biasRows_apply bd r q)

/-- The reference's function of the arguments is the kernel program's. -/
theorem nets_eq (x : (⟨Cert.KernelIdeal.S50000x128, .f32⟩ : BufTy).Contents (Elt Ideal)) (e : (⟨Cert.KernelIdeal.S2x600000, .i32⟩ : BufTy).Contents (Elt Ideal)) (w1 : (⟨Cert.KernelIdeal.S128x128, .f32⟩ : BufTy).Contents (Elt Ideal)) (b1 : (⟨Cert.KernelIdeal.S128, .f32⟩ : BufTy).Contents (Elt Ideal))
    (w2 : (⟨Cert.KernelIdeal.S128x128, .f32⟩ : BufTy).Contents (Elt Ideal)) (b2 : (⟨Cert.KernelIdeal.S128, .f32⟩ : BufTy).Contents (Elt Ideal)) (wd : (⟨Cert.KernelIdeal.S128x128, .f32⟩ : BufTy).Contents (Elt Ideal)) (bd : (⟨Cert.KernelIdeal.S128, .f32⟩ : BufTy).Contents (Elt Ideal)) :
    Cert.ReferenceIdeal.HostGlue.net (F := Ideal) x e w1 b1 w2 b2 wd bd = Cert.KernelIdeal.Result.net x e w1 b1 w2 b2 wd bd := by
  unfold Cert.ReferenceIdeal.HostGlue.net Cert.KernelIdeal.Result.net
  rw [dot_eq x w1, dot_eq _ w2, dot_eq _ wd, decoder_eq]

end Cert.Bridge

end
-- ==== Proof.lean ====
/-
  The kernel program — three matrix-product regions (x · W1, h · W2 and the decoder max(h · Wd + bd, 0)) among the
  host operations of two graph-convolution layers — against the reference that computes the three products with the
  host's dot_general.

  At the exact values both programs compute one function of the eight arguments.  The edge bookkeeping, the degrees
  and their inverse square roots, the gathers and the scattered sums are the same host operations in both programs,
  applied to equal arrays; they are carried as named functions and never opened.  The programs differ only in the
  three products: a region computes its product 2000 rows at a time, and an entry of a product depends on one row of
  the left operand, so the 25 blocks together are the whole product, which the host's dot_general also is; the
  changes of float format before a region's product keep every value.  No algebraic law beyond this re-indexing is
  used, so the finiteness of the inputs is never needed.

  The frames of the two kernel programs are the generated ones; the reference's frame is its run with the result
  dropped; the idealization rewrote nothing, so there is nothing to preserve.
-/
import proofs.«173065_j62234076119723_2_alg».proof.Defs
import proofs.«173065_j62234076119723_2_alg».proof.Proof.Gen.Kernel
import proofs.«173065_j62234076119723_2_alg».proof.Proof.Gen.Kernel.Skeleton
import proofs.«173065_j62234076119723_2_alg».proof.Proof.Gen.Kernel.Launch
import proofs.«173065_j62234076119723_2_alg».proof.Proof.Gen.Kernel.Points
import proofs.«173065_j62234076119723_2_alg».proof.Proof.Gen.Kernel.Frame
import proofs.«173065_j62234076119723_2_alg».proof.Proof.Gen.KernelIdeal
import proofs.«173065_j62234076119723_2_alg».proof.Proof.Gen.KernelIdeal.Skeleton
import proofs.«173065_j62234076119723_2_alg».proof.Proof.Gen.KernelIdeal.Launch
import proofs.«173065_j62234076119723_2_alg».proof.Proof.Gen.KernelIdeal.Points
import proofs.«173065_j62234076119723_2_alg».proof.Proof.Gen.KernelIdeal.Frame
import proofs.«173065_j62234076119723_2_alg».proof.Proof.Gen.ReferenceIdeal
import proofs.«173065_j62234076119723_2_alg».proof.Proof.Gen.Pre_finite_inputs
import proofs.«173065_j62234076119723_2_alg».proof.Proof.KRun
import proofs.«173065_j62234076119723_2_alg».proof.Proof.KValue
import proofs.«173065_j62234076119723_2_alg».proof.Proof.RefRun
import proofs.«173065_j62234076119723_2_alg».proof.Proof.RefGlue
import proofs.«173065_j62234076119723_2_alg».proof.Proof.RefArgs
import proofs.«173065_j62234076119723_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped: no operation writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.HostArgs.kept_arg0 _),
     (h c Cert.ReferenceIdeal.main_arg1).trans (Cert.ReferenceIdeal.HostArgs.kept_arg1 _),
     (h c Cert.ReferenceIdeal.main_arg2).trans (Cert.ReferenceIdeal.HostArgs.kept_arg2 _),
     (h c Cert.ReferenceIdeal.main_arg3).trans (Cert.ReferenceIdeal.HostArgs.kept_arg3 _),
     (h c Cert.ReferenceIdeal.main_arg4).trans (Cert.ReferenceIdeal.HostArgs.kept_arg4 _),
     (h c Cert.ReferenceIdeal.main_arg5).trans (Cert.ReferenceIdeal.HostArgs.kept_arg5 _),
     (h c Cert.ReferenceIdeal.main_arg6).trans (Cert.ReferenceIdeal.HostArgs.kept_arg6 _),
     (h c Cert.ReferenceIdeal.main_arg7).trans (Cert.ReferenceIdeal.HostArgs.kept_arg7 _)⟩)
    (Cert.ReferenceIdeal.HostRun.run (F := Ideal) m ρ)

/-- Both programs end with the one function of the arguments in their result buffers. -/
theorem algebraic : Cert.algebraic_KernelIdeal_ReferenceIdeal := by
  intro m ρ m' ρ' _ hagree
  refine ⟨fun c => Cert.KernelIdeal.Result.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Result.result m ρ c), (h c).2⟩)
      (Cert.KernelIdeal.ValueRun.run (F := Ideal) m ρ)
  · refine (θ_run Cert.ReferenceIdeal.defs _ _).mono (fun _ h c => ?_) (Cert.ReferenceIdeal.HostRun.run (F := Ideal) m' ρ')
    obtain ⟨a0, a1, a2, a3, a4, a5, a6, a7⟩ := hagree c
    refine ⟨?_,
      (h c Cert.ReferenceIdeal.main_arg0).trans (Cert.ReferenceIdeal.HostArgs.kept_arg0 _),
      (h c Cert.ReferenceIdeal.main_arg1).trans (Cert.ReferenceIdeal.HostArgs.kept_arg1 _),
      (h c Cert.ReferenceIdeal.main_arg2).trans (Cert.ReferenceIdeal.HostArgs.kept_arg2 _),
      (h c Cert.ReferenceIdeal.main_arg3).trans (Cert.ReferenceIdeal.HostArgs.kept_arg3 _),
      (h c Cert.ReferenceIdeal.main_arg4).trans (Cert.ReferenceIdeal.HostArgs.kept_arg4 _),
      (h c Cert.ReferenceIdeal.main_arg5).trans (Cert.ReferenceIdeal.HostArgs.kept_arg5 _),
      (h c Cert.ReferenceIdeal.main_arg6).trans (Cert.ReferenceIdeal.HostArgs.kept_arg6 _),
      (h c Cert.ReferenceIdeal.main_arg7).trans (Cert.ReferenceIdeal.HostArgs.kept_arg7 _)⟩
    refine (h c Cert.ReferenceIdeal.main_v95).trans ((Cert.ReferenceIdeal.HostGlue.ref_v95 _).trans ?_)
    show Cert.ReferenceIdeal.HostGlue.net (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [a0, a1, a2, a3, a4, a5, a6, a7]
    exact Cert.Bridge.nets_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
